-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S4x1x1 : Shape := ⟨3, ![4, 1, 1]⟩
abbrev S2048x128 : Shape := ⟨2, ![2048, 128]⟩
abbrev S1024x128 : Shape := ⟨2, ![1024, 128]⟩
abbrev S1x1x1 : Shape := ⟨3, ![1, 1, 1]⟩
abbrev S128x1024 : Shape := ⟨2, ![128, 1024]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .bf16⟩
  | .hbm, ⟨6, _⟩ => ⟨S8192x128, .bf16⟩
  | .hbm, ⟨7, _⟩ => ⟨S4x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S1x1x1, .f32⟩
  | .local _ .vmem, ⟨5, _⟩ => ⟨S1x1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S4x1x1_S_d0_1_2 : S4x1x1.ReducesTo [0, 1, 2] S_
  h_S_ : 0 < S_.numel
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .bf16 = 32 ∨ (Rect.block (s := S8192x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v3) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.KernelPieces.lean ====
/-
  What one grid point leaves in the accumulator block.

  The kernel's body adds to its 1x1x1 output block the partial sum of the current tile: the sum, over the
  2048 x 1024 entries of the tile's matrix product, of their absolute values.  At the first point of a row of
  tiles the block is first reset to zero.  So after a point the block holds either `0 + part` (a reset point)
  or `previous + part` (every other point), where `part` is the tile's partial sum.
-/
import proofs.«139733_j53927609369065_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block a reset point stores. -/
abbrev zero : Vec F S1x1x1 .f32 := broadcast S1x1x1 (Scalar.ofBits .f32 0x00000000#32)

/-- The tile's partial sum: the matrix product of the left block with the transposed right block, its absolute
    values summed along the rows and then down the column, as a 1x1x1 block. -/
def part (v3 : Vec F S2048x128 .bf16) (v5 : Vec F S1024x128 .bf16) : FVec F S1x1x1 .f32 :=
  shapeCast S1x1x1
    (shapeCast S1x1
      (multiReduction .add [0] S1
        (shapeCast S2048x1
          (multiReduction .add [1] S2048
            (absf (matmul dot_S2048x128_S128x1024_S2048x1024_1_0_0_1_n_n none v3
              (transpose S128x1024 [1, 0] v5 transposes_S1024x128_p1_0_S128x1024)
              (constant S2048x1024 .f32 0x00000000#32)))
            0x00000000#32 reduces_S2048x1024_S2048 (.inl rfl) rfl)
          shapeCasts_S2048_S2048x1)
        0x00000000#32 reduces_S2048x1_S1 (.inl rfl) rfl)
      shapeCasts_S1_S1x1)
    shapeCasts_S1x1_S1x1x1

/-- The body's one accumulating store writes the block read before it plus the tile's partial sum. -/
theorem pay2_eq (v3 : Vec F S2048x128 .bf16) (v5 : Vec F S1024x128 .bf16) (v14 : Vec F S1x1x1 .f32) :
    k0_pay2 v3 v5 v14 = addf v14 (part v3 v5) := by
  unfold k0_pay2 part
  simp only [shapeCast_self]

/-- Away from the first tile of a row the body leaves, in the block that held `xo`, `xo` plus the tile's partial sum. -/
theorem out_B (c : Dev nD) (i : grid0.Coords) (a2 : Memref sig .tc .vmem S2048x128 .bf16) (h2 : a2.IsWhole)
    (a3 : Memref sig .tc .vmem S1024x128 .bf16) (h3 : a3.IsWhole) (a4 : Memref sig .tc .vmem S1x1x1 .f32) (h4 : a4.IsWhole)
    (hc : ¬cond0_0 i) (x0 : Vec F S2048x128 .bf16) (x1 : Vec F S1024x128 .bf16) (xo : Vec F S1x1x1 .f32) :
    out0_B_2 c i a2 h2 a3 h3 a4 h4 hc x0 x1 xo = addf xo (part x0 x1) := by
  unfold out0_B_2
  rw [View.read_writes_eq_canon _ _ _ (cover0_B_2 c i a2 h2 a3 h3 a4 h4 hc x0 x1 xo)]
  unfold kernelRun0_B
  dsimp only
  rw [View.canon_unit_zero hz3, pay2_eq]
  simp only [View.readAt_eq_ld, h2.read_unread, h3.read_unread, h4.read_unread, View.ld_unit_zero (S := S2048x128) hz2,
    View.ld_unit_zero (S := S1024x128) hz2, View.ld_unit_zero (S := S1x1x1) hz3]

/-- At the first tile of a row the body stores the zero block, reads it back, and leaves zero plus the tile's partial sum. -/
theorem out_A (c : Dev nD) (i : grid0.Coords) (a2 : Memref sig .tc .vmem S2048x128 .bf16) (h2 : a2.IsWhole)
    (a3 : Memref sig .tc .vmem S1024x128 .bf16) (h3 : a3.IsWhole) (a4 : Memref sig .tc .vmem S1x1x1 .f32) (h4 : a4.IsWhole)
    (hc : cond0_0 i) (x0 : Vec F S2048x128 .bf16) (x1 : Vec F S1024x128 .bf16) :
    out0_A_2 c i a2 h2 a3 h3 a4 h4 hc x0 x1 = addf zero (part x0 x1) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3, pay2_eq]
  unfold k0_pay1
  simp only [View.readAt_eq_ld, h2.read_unread, h3.read_unread, View.ld_unit_zero (S := S2048x128) hz2,
    View.ld_unit_zero (S := S1024x128) hz2]

variable (m : (ℓ : Loc nD τ sig) → Buf (Elt F) ℓ)

/-- What point `n` adds to the accumulator block: the partial sum of the tile its two input blocks make. -/
def partAt (c : Dev nD) (n : ℕ) (h : n < cfg0.N) : FVec F S1x1x1 .f32 :=
  part (iblk m c 0 ⟨n, h⟩) (iblk m c 1 ⟨n, h⟩)

/-- The accumulator block after point `t`: the row of tiles that `t` lies in starts at point `8 * (t / 8)`, where the
    block is reset to zero plus that tile's partial sum, and every later point of the row adds its own. -/
theorem outsAt_eq (c : Dev nD) (t : ℕ) (ht : t < cfg0.N) (h' : 8 * (t / 8) + t % 8 < cfg0.N) :
    outsAt0 m c t ht
      = Pipeline.accAt (fun n h => addf zero (partAt m c n h)) (fun n h acc => addf acc (partAt m c n h))
          (8 * (t / 8)) (t % 8) h' :=
  Pipeline.eq_accAt_of_mod (outsAt0 m c) 8 _ _
    (fun n h h0 => (outsAt0_A m c ⟨n, h⟩ h0).trans (out_A ..))
    (fun n h hne => by
      rw [outsAt0_B m c ⟨n + 1, h⟩ hne, out_B]
      rfl)
    (by decide) t ht h'

end Cert.KernelIdeal.Pieces

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.Spec.lean ====
/-
  The loss both programs compute, as one function of two 8192 x 128 arrays of extended reals.

  For arrays `L` and `B` the entry `(a, b)` of the matrix `L Bᵀ` is `∑ d, L (a, d) * B (b, d)`.  The loss is
  `c₁ + (c₀ + ∑ a, ∑ b, |L Bᵀ (a, b)|) / c₂` for three fixed numbers `c₀, c₁, c₂`, where `|x| = max x (-x)`.
  The 8192 x 8192 index square is cut into 4 x 8 tiles of 2048 x 1024 entries; the sum over the square is the sum,
  over the tiles, of each tile's sum.  Addition of extended reals is commutative and associative, so this holds at
  the infinities too.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The absolute value of an extended real, as the larger of it and its negation. -/
def absE (x : EReal) : EReal := max x (-x)

/-- A number and its negation have the same absolute value. -/
theorem absE_neg (x : EReal) : absE (-x) = absE x := by
  unfold absE
  rw [neg_neg, max_comm]

/-- The entry `(a, b)` of `L Bᵀ`. -/
def prodAt (L B : (⟨2, ![8192, 128]⟩ : Shape).Idx → EReal) (a b : Fin 8192) : EReal :=
  ∑ d : Fin 128, L (ix2 a d) * B (ix2 b d)

/-- The sum of the absolute values of every entry of `L Bᵀ`. -/
def total (L B : (⟨2, ![8192, 128]⟩ : Shape).Idx → EReal) : EReal :=
  ∑ a : Fin 8192, ∑ b : Fin 8192, absE (prodAt L B a b)

/-- Row `p` of the `i`-th band of 2048 rows. -/
def rowOf (i : Fin 4) (p : Fin 2048) : Fin 8192 := ⟨2048 * i.val + p.val, by omega⟩

/-- Column `q` of the `j`-th band of 1024 columns. -/
def colOf (j : Fin 8) (q : Fin 1024) : Fin 8192 := ⟨1024 * j.val + q.val, by omega⟩

/-- The sum of the absolute values over tile `(i, j)`. -/
def tile (L B : (⟨2, ![8192, 128]⟩ : Shape).Idx → EReal) (i : Fin 4) (j : Fin 8) : EReal :=
  ∑ p : Fin 2048, ∑ q : Fin 1024, absE (prodAt L B (rowOf i p) (colOf j q))

/-- A sum over `m * n` consecutive positions, taken band by band. -/
theorem sum_bands {M : Type*} [AddCommMonoid M] (m n : ℕ) (f : Fin (m * n) → M) :
    ∑ a, f a = ∑ i : Fin m, ∑ p : Fin n, f (finProdFinEquiv (i, p)) := by
  rw [← Equiv.sum_comp finProdFinEquiv f, Fintype.sum_prod_type]

theorem sum_rows {M : Type*} [AddCommMonoid M] (f : Fin 8192 → M) :
    ∑ a, f a = ∑ i : Fin 4, ∑ p : Fin 2048, f (rowOf i p) := by
  rw [sum_bands 4 2048 f]
  refine Finset.sum_congr rfl fun i _ => Finset.sum_congr rfl fun p _ => congrArg f (Fin.ext ?_)
  show p.val + 2048 * i.val = 2048 * i.val + p.val
  omega

theorem sum_cols {M : Type*} [AddCommMonoid M] (f : Fin 8192 → M) :
    ∑ b, f b = ∑ j : Fin 8, ∑ q : Fin 1024, f (colOf j q) := by
  rw [sum_bands 8 1024 f]
  refine Finset.sum_congr rfl fun j _ => Finset.sum_congr rfl fun q _ => congrArg f (Fin.ext ?_)
  show q.val + 1024 * j.val = 1024 * j.val + q.val
  omega

/-- The tiles' sums add up to the sum over the whole square. -/
theorem sum_tiles (L B : (⟨2, ![8192, 128]⟩ : Shape).Idx → EReal) :
    ∑ i : Fin 4, ∑ j : Fin 8, tile L B i j = total L B := by
  unfold total tile
  rw [sum_rows]
  refine Finset.sum_congr rfl fun i _ => ?_
  rw [Finset.sum_comm]
  refine Finset.sum_congr rfl fun p _ => ?_
  rw [sum_cols]

/-- The difference of the two arrays' logarithms, entry by entry. -/
def logRatio (x0 x1 : (⟨2, ![8192, 128]⟩ : Shape).Idx → EReal) : (⟨2, ![8192, 128]⟩ : Shape).Idx → EReal :=
  fun i => Ideal.log (x0 i) - Ideal.log (x1 i)

/-- The loss, as a rank-0 array. -/
def loss (L B : (⟨2, ![8192, 128]⟩ : Shape).Idx → EReal) : (⟨0, ![]⟩ : Shape).Idx → EReal := fun _ =>
  Ideal.ofBits .f32 0x38D1B717#32
    + Ideal.div (Ideal.ofBits .f32 0x00000000#32 + total L B) (Ideal.ofBits .f32 0x4C800000#32)

/-- A 4 x 1 x 1 index is its first coordinate. -/
def idxEquiv411 : (⟨3, ![4, 1, 1]⟩ : Shape).Idx ≃ Fin 4 where
  toFun y := ⟨(y 0).val, (y 0).isLt⟩
  invFun i := ix3 i (0 : Fin 1) (0 : Fin 1)
  left_inv y := by
    funext a
    match a with
    | ⟨0, _⟩ => rfl
    | ⟨1, _⟩ => exact Fin.ext (by have h : (y 1).val < 1 := (y 1).isLt; show 0 = (y 1).val; omega)
    | ⟨2, _⟩ => exact Fin.ext (by have h : (y 2).val < 1 := (y 2).isLt; show 0 = (y 2).val; omega)
  right_inv _ := rfl

/-- A sum over the 4 x 1 x 1 indices is the sum over the first coordinate. -/
theorem sum_idx411 {M : Type*} [AddCommMonoid M] (f : (⟨3, ![4, 1, 1]⟩ : Shape).Idx → M) :
    ∑ y, f y = ∑ i : Fin 4, f (ix3 i (0 : Fin 1) (0 : Fin 1)) := by
  rw [← Equiv.sum_comp idxEquiv411.symm f]
  rfl

end Cert.Spec

end
-- ==== Proof.KernelTile.lean ====
/-
  The tile's partial sum over the extended reals.

  For a 2048 x 128 left block `x0` and a 1024 x 128 right block `x1` the body's partial sum is
  `∑ p, ∑ q, |∑ d, x0 (p, d) * x1 (q, d)|`: the matrix product into a zero accumulator is the plain sum over the
  contracted axis, the transposed right block is read at the swapped index, the lane sum and the column sum are
  plain sums, and the reshapes between one-entry shapes move nothing.
-/
import proofs.«139733_j53927609369065_2_alg».proof.Proof.KernelPieces
import proofs.«139733_j53927609369065_2_alg».proof.Proof.LibLayout
import proofs.«139733_j53927609369065_2_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen Cert.KernelIdeal.Pieces Cert.Spec

/-- The dimension numbers of the body's matrix product: rows x contraction times contraction x columns. -/
abbrev dotT : DotDims S2048x128 S128x1024 S2048x1024 := dot_S2048x128_S128x1024_S2048x1024_1_0_0_1_n_n

theorem lhs_row (i : S2048x1024.Idx) (k : dotT.contr.Idx) : (dotT.lhsIdx i k 0).val = (i 0).val := by
  unfold DotDims.lhsIdx
  rw [dif_neg (show ¬(0 : Fin S2048x128.rank) ∈ dotT.lhsBatch by decide),
    dif_pos (show (0 : Fin S2048x128.rank) ∈ dotT.lhsNonContracting by decide)]
  rfl

theorem lhs_contr (i : S2048x1024.Idx) (k : dotT.contr.Idx) : (dotT.lhsIdx i k 1).val = (k ⟨0, by decide⟩).val :=
  dotT.lhsIdx_val_of_single rfl i k

theorem rhs_contr (i : S2048x1024.Idx) (k : dotT.contr.Idx) : (dotT.rhsIdx i k 0).val = (k ⟨0, by decide⟩).val :=
  dotT.rhsIdx_val_of_single rfl i k

theorem rhs_col (i : S2048x1024.Idx) (k : dotT.contr.Idx) : (dotT.rhsIdx i k 1).val = (i 1).val := by
  unfold DotDims.rhsIdx
  rw [dif_neg (show ¬(1 : Fin S128x1024.rank) ∈ dotT.rhsBatch by decide),
    dif_pos (show (1 : Fin S128x1024.rank) ∈ dotT.rhsNonContracting by decide)]
  rfl

/-- Entry `(p, q)` of the product of the left block with the transposed right block, accumulated into zero. -/
theorem matmul_at (x0 : FVec Ideal S2048x128 .bf16) (x1 : FVec Ideal S1024x128 .bf16) (p : Fin 2048) (q : Fin 1024) :
    matmul dotT none x0 (transpose S128x1024 [1, 0] x1 transposes_S1024x128_p1_0_S128x1024)
        (constant (F := Ideal) S2048x1024 .f32 0x00000000#32) (ix2 p q)
      = ∑ d : Fin 128, x0 (ix2 p d) * x1 (ix2 q d) := by
  simp only [matmul]
  rw [Ideal.matmul_constant_zero_apply, ← Equiv.sum_comp (contrEquiv1 dotT 128 rfl rfl).symm]
  refine Finset.sum_congr rfl fun k _ => ?_
  have hk := contrEquiv1_symm_val dotT 128 rfl rfl k
  have el : dotT.lhsIdx (ix2 p q) ((contrEquiv1 dotT 128 rfl rfl).symm k) = ix2 p k := funext fun a => Fin.ext (by
    match a with
    | ⟨0, _⟩ => exact lhs_row _ _
    | ⟨1, _⟩ => exact (lhs_contr _ _).trans hk)
  have er : dotT.rhsIdx (ix2 p q) ((contrEquiv1 dotT 128 rfl rfl).symm k) = ix2 k q := funext fun a => Fin.ext (by
    match a with
    | ⟨0, _⟩ => exact (rhs_contr _ _).trans hk
    | ⟨1, _⟩ => exact rhs_col _ _)
  rw [el, er, transpose_ix2_apply]

/-- The lane sum of row `p` of a 2048 x 1024 block. -/
theorem rowsum_at (v : FVec Ideal S2048x1024 .f32) (p : Fin 2048) :
    multiReduction .add [1] S2048 v 0x00000000#32 reduces_S2048x1024_S2048 (.inl rfl) rfl (ix1 p)
      = ∑ q : Fin 1024, v (ix2 p q) := by
  refine (Ideal.multiReduction_add_single v 0x00000000#32 reduces_S2048x1024_S2048 (.inl rfl) rfl (ix1 p)).trans ?_
  refine Finset.sum_congr rfl fun q _ => congrArg v (funext fun a => ?_)
  match a with
  | ⟨0, _⟩ => rfl
  | ⟨1, _⟩ => rfl

/-- The sum down a 2048 x 1 column. -/
theorem colsum_at (v : FVec Ideal S2048x1 .f32) :
    multiReduction .add [0] S1 v 0x00000000#32 reduces_S2048x1_S1 (.inl rfl) rfl (ix1 (0 : Fin 1))
      = ∑ p : Fin 2048, v (ix2 p (0 : Fin 1)) := by
  refine (Ideal.multiReduction_add_single v 0x00000000#32 reduces_S2048x1_S1 (.inl rfl) rfl (ix1 (0 : Fin 1))).trans ?_
  refine Finset.sum_congr rfl fun p _ => congrArg v (funext fun a => ?_)
  match a with
  | ⟨0, _⟩ => rfl
  | ⟨1, _⟩ => rfl

/-- The tile's partial sum, at the block's one index. -/
theorem part_apply (x0 : FVec Ideal S2048x128 .bf16) (x1 : FVec Ideal S1024x128 .bf16) (y : S1x1x1.Idx) :
    part (F := Ideal) x0 x1 y
      = ∑ p : Fin 2048, ∑ q : Fin 1024, absE (∑ d : Fin 128, x0 (ix2 p d) * x1 (ix2 q d)) := by
  unfold part
  have n3 : S1x1x1.numel = 1 := by decide
  have n2 : S1x1.numel = 1 := by decide
  have n1 : S1.numel = 1 := by decide
  refine (shapeCast_apply _ shapeCasts_S1x1_S1x1x1 y (ix2 (0 : Fin 1) (0 : Fin 1)) (by
    have := (S1x1x1.rowMajor y).isLt; have := (S1x1.rowMajor (ix2 (0 : Fin 1) (0 : Fin 1))).isLt; omega)).trans ?_
  refine (shapeCast_apply _ shapeCasts_S1_S1x1 (ix2 (0 : Fin 1) (0 : Fin 1)) (ix1 (0 : Fin 1)) (by
    have := (S1.rowMajor (ix1 (0 : Fin 1))).isLt; have := (S1x1.rowMajor (ix2 (0 : Fin 1) (0 : Fin 1))).isLt; omega)).trans ?_
  refine (colsum_at _).trans ?_
  refine Finset.sum_congr rfl fun p _ => ?_
  refine (Cert.LibLayout.shapeCast_a_a1_apply _ shapeCasts_S2048_S2048x1 p (0 : Fin 1)).trans ?_
  refine (rowsum_at _ p).trans ?_
  refine Finset.sum_congr rfl fun q _ => ?_
  rw [← matmul_at x0 x1 p q]
  rfl

end Cert.KernelIdeal.Tile

end
-- ==== Proof.KernelBlocks.lean ====
/-
  The kernel's input blocks as entries of the arrays the host lines before the call leave.

  Grid point `t` of the 4 x 8 grid is tile `(t / 8, t % 8)`.  The left window's block at `t` is rows
  `2048 * (t / 8) … + 2047` of the first operand, the right window's block rows `1024 * (t % 8) … + 1023` of the
  second, and the output's block is entry `t / 8` of the 4 x 1 x 1 result.  Over the extended reals the first
  operand is the difference of the two arguments' logarithms and the second is the second argument (the change of
  float format is the identity).
-/
import proofs.«139733_j53927609369065_2_alg».proof.Proof.Gen.KernelIdeal.Frame
import proofs.«139733_j53927609369065_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

/-- The windows' block indices at grid point `t`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

section AnyValues

variable {F : FTy → Type} [FloatOps F]
variable (m : (ℓ : Loc nD τ sig) → Buf (Elt F) ℓ)

/-- The left block at point `t` holds, at `(p, d)`, the first operand's entry `(2048 * (t / 8) + p, d)`. -/
theorem iblk0_apply (c : Dev nD) (t : Fin cfg0.N) (p : Fin 2048) (d : Fin 128) (k : Fin 8192)
    (hk : k.val = 2048 * (t.val / 8) + p.val) :
    (iblk m c 0 t : Vec F S2048x128 .bf16) (ix2 p d) = (V m c main_v3 : S8192x128.Idx → Elt F .bf16) (ix2 k d) := by
  obtain ⟨e0, e1, -⟩ := idx_facts t
  unfold iblk
  rw [View.read_apply]
  show V m c main_v3 _ = V m c main_v3 _
  refine congrArg _ (funext fun a => Fin.ext ?_)
  match a with
  | ⟨0, _⟩ => show win0_0.index t 0 * 2048 + 1 * p.val = k.val; rw [e0, hk]; omega
  | ⟨1, _⟩ => show win0_0.index t 1 * 128 + 1 * d.val = d.val; rw [e1]; omega

/-- The right block at point `t` holds, at `(q, d)`, the second operand's entry `(1024 * (t % 8) + q, d)`. -/
theorem iblk1_apply (c : Dev nD) (t : Fin cfg0.N) (q : Fin 1024) (d : Fin 128) (k : Fin 8192)
    (hk : k.val = 1024 * (t.val % 8) + q.val) :
    (iblk m c 1 t : Vec F S1024x128 .bf16) (ix2 q d) = (V m c main_v4 : S8192x128.Idx → Elt F .bf16) (ix2 k d) := by
  obtain ⟨-, -, e0, e1, -⟩ := idx_facts t
  unfold iblk
  rw [View.read_apply]
  show V m c main_v4 _ = V m c main_v4 _
  refine congrArg _ (funext fun a => Fin.ext ?_)
  match a with
  | ⟨0, _⟩ => show win0_1.index t 0 * 1024 + 1 * q.val = k.val; rw [e0, hk]; omega
  | ⟨1, _⟩ => show win0_1.index t 1 * 128 + 1 * d.val = d.val; rw [e1]; omega

end AnyValues

variable (m : (ℓ : Loc nD τ sig) → Buf (Elt Ideal) ℓ)

/-- The first operand of the call is the difference of the arguments' logarithms. -/
theorem V_v3 (c : Dev nD) : (V m c main_v3 : S8192x128.Idx → EReal)
    = logRatio (m ((c : Thread nD τ).loc main_arg0)) (m ((c : Thread nD τ).loc main_arg1)) := by
  show StableHlo.after hostOps0 (fun b => m (c, b)) (Proc.devRef .tc main_v3) = _
  after_results
  rfl

/-- The second operand of the call is the second argument. -/
theorem V_v4 (c : Dev nD) : (V m c main_v4 : S8192x128.Idx → EReal) = m ((c : Thread nD τ).loc main_arg1) := by
  show StableHlo.after hostOps0 (fun b => m (c, b)) (Proc.devRef .tc main_v4) = _
  after_results
  rfl

end Cert.KernelIdeal.Blocks

end
-- ==== Proof.KernelValue.lean ====
/-
  What the kernel's program computes over the extended reals.

  After the last point of a row of tiles the accumulator block holds the sum of that row's eight tile sums; that
  point writes the block back as one entry of the 4 x 1 x 1 result, so the result holds, at entry `i`, the sum of the
  tile sums of row `i`.  The host lines after the call add the four entries to zero, divide and add a constant:
  the loss of the call's two operands.
-/
import proofs.«139733_j53927609369065_2_alg».proof.Proof.KernelTile
import proofs.«139733_j53927609369065_2_alg».proof.Proof.KernelBlocks
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Tile Cert.KernelIdeal.Blocks Cert.Spec

variable (m : (ℓ : Loc nD τ sig) → Buf (Elt Ideal) ℓ) (ρ : Dev nD → PrngReg)

/-- The tile sum with the tile named by two natural numbers (reduced into range). -/
def tileN (L B : (⟨2, ![8192, 128]⟩ : Shape).Idx → EReal) (a b : ℕ) : EReal :=
  tile L B ⟨a % 4, Nat.mod_lt _ (by decide)⟩ ⟨b % 8, Nat.mod_lt _ (by decide)⟩

/-- The call's two operands on core `c`. -/
abbrev Lk (c : Dev nD) : (⟨2, ![8192, 128]⟩ : Shape).Idx → EReal := V m c main_v3
abbrev Bk (c : Dev nD) : (⟨2, ![8192, 128]⟩ : Shape).Idx → EReal := V m c main_v4

/-- What point `n` adds is the sum of tile `(n / 8, n % 8)`. -/
theorem partAt_apply (c : Dev nD) (n : ℕ) (h : n < cfg0.N) (y : S1x1x1.Idx) :
    partAt m c n h y = tileN (Lk m c) (Bk m c) (n / 8) (n % 8) := by
  have hN : n < 32 := lt_of_lt_of_eq h N_0
  unfold partAt
  refine (part_apply _ _ y).trans ?_
  unfold tileN tile
  refine Finset.sum_congr rfl fun p _ => Finset.sum_congr rfl fun q _ => congrArg absE ?_
  unfold prodAt
  refine Finset.sum_congr rfl fun d _ => ?_
  exact congrArg₂ (· * ·)
    (iblk0_apply m c ⟨n, h⟩ p d _ (by show 2048 * (n / 8 % 4) + p.val = 2048 * (n / 8) + p.val; omega))
    (iblk1_apply m c ⟨n, h⟩ q d _ (by show 1024 * (n % 8 % 8) + q.val = 1024 * (n % 8) + q.val; omega))

/-- At the last point of a row of tiles the accumulator block holds the sum of the row's eight tile sums. -/
theorem outsAt_flush (c : Dev nD) (t : Fin cfg0.N) (h7 : t.val % 8 = 7) (y : S1x1x1.Idx) :
    outsAt0 m c t.val t.isLt y = ∑ j : Fin 8, tileN (Lk m c) (Bk m c) (t.val / 8) j.val := by
  have h' : 8 * (t.val / 8) + t.val % 8 < cfg0.N := by rw [Nat.div_add_mod]; exact t.isLt
  rw [outsAt_eq m c t.val t.isLt h']
  refine (Pipeline.accAt_add_apply _ _ (fun _ => (0 : EReal))
    (fun n _ => tileN (Lk m c) (Bk m c) (n / 8) (n % 8)) (8 * (t.val / 8)) 7
    (fun h i => by
      show Ideal.ofBits .f32 0x00000000#32 + partAt m c _ h i = _
      rw [Ideal.ofBits_zero_f32, partAt_apply])
    (fun n h acc i _ _ => by
      show acc i + partAt m c n h i = _
      rw [partAt_apply])
    (t.val % 8) (by omega) h' y).trans ?_
  rw [zero_add, h7, Finset.sum_range]
  refine Finset.sum_congr rfl fun j _ => ?_
  have e1 : (8 * (t.val / 8) + j.val) / 8 = t.val / 8 := by omega
  have e2 : (8 * (t.val / 8) + j.val) % 8 = j.val := by omega
  rw [e1, e2]

/-- The sum of the tile sums of row `n`. -/
def rowTiles (L B : (⟨2, ![8192, 128]⟩ : Shape).Idx → EReal) (n : ℕ) : EReal := ∑ j : Fin 8, tileN L B n j.val

/-- The 4 x 1 x 1 result of the call: entry `i` is the sum of the tile sums of row `i`. -/
def G (c : Dev nD) : S4x1x1.Idx → EReal :=
  fun i => rowTiles (Lk m c) (Bk m c) (i 0).val

/-- What a point that writes back writes: its entry of `G`. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  obtain ⟨-, -, -, -, e0, -, -⟩ := idx_facts t
  show (cfg0.win 2).cut (grid0.coords t) ((dats m 0 c).after 2 t) = _
  rw [after0_2]
  funext y
  show outsAt0 m c t.val t.isLt y = G m c (((cfg0.win 2).blk t).view.emb y)
  rw [outsAt_flush m c t h7 y]
  unfold G rowTiles
  have e : ((((cfg0.win 2).blk t).view.emb y) 0).val = t.val / 8 := by
    show win0_2.index t 0 * 1 + 1 * (y 0).val = _
    have : (y 0).val < 1 := (y 0).isLt
    rw [e0]; omega
  rw [e]

/-- An index of the result is in point `t`'s block iff each coordinate is the block's on its axis. -/
theorem mem_blk (t : Fin cfg0.N) (i : S4x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v5).slice (win0_2.rect t)).set ↔ _
  rw [View.set_slice_whole, Rect.mem_set_unit]
  exact Iff.rfl

/-- So the call's result ends holding `G`: entry `i` is written by the last point of row `i`. -/
theorem final (c : Dev nD) : (dats m 0 c).arrAt 2 cfg0.N = G m c :=
  (dats m 0 c).arrAt_eq_of_cover 2 (G m c) (flushed_eq m c) fun i => by
    have hi0 : (i 0).val < 4 := (i 0).isLt
    have hi1 : (i 1).val < 1 := (i 1).isLt
    have hi2 : (i 2).val < 1 := (i 2).isLt
    have hlt : 8 * (i 0).val + 7 < cfg0.N := lt_of_lt_of_eq (by omega : 8 * (i 0).val + 7 < 32) N_0.symm
    obtain ⟨-, -, -, -, e0, e1, e2⟩ := idx_facts ⟨8 * (i 0).val + 7, hlt⟩
    refine ⟨⟨8 * (i 0).val + 7, hlt⟩, (flush0_2 _).mpr (by show (8 * (i 0).val + 7) % 8 = 7; omega), ?_⟩
    rw [mem_blk]
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 1 ≤ (i 2).val ∧ (i 2).val < win0_2.index _ (2 : Fin 3) * 1 + 1
      rw [e2]; omega

/-- The host lines after the call, applied to any 4 x 1 x 1 array: its entries added to zero, divided, a constant added. -/
theorem tail_apply (X : S4x1x1.Idx → EReal) (i : S_.Idx) :
    addf (constant (F := Ideal) S_ .f32 0x38D1B717#32)
        (Host.divf (Host.reduceAdd (F := Ideal) X (constant (F := Ideal) S_ .f32 0x00000000#32) reducesTo_S4x1x1_S_d0_1_2 h_S_)
          (constant (F := Ideal) S_ .f32 0x4C800000#32)) i
      = Ideal.ofBits .f32 0x38D1B717#32
        + Ideal.div (Ideal.ofBits .f32 0x00000000#32 + ∑ y, X y) (Ideal.ofBits .f32 0x4C800000#32) := by
  show Ideal.ofBits .f32 0x38D1B717#32
    + Ideal.div (Host.reduceAdd (F := Ideal) X (constant (F := Ideal) S_ .f32 0x00000000#32) reducesTo_S4x1x1_S_d0_1_2 h_S_ i)
        (Ideal.ofBits .f32 0x4C800000#32) = _
  simp only [Host.reduceAdd, Ideal.hostReduceAdd_def]
  rw [Ideal.hostReduceAdd_total reducesTo_S4x1x1_S_d0_1_2 (fun b => b.elim0) X _ i]
  rfl

/-- The four entries of `G` add up to the sum over the whole square. -/
theorem sum_G (c : Dev nD) : ∑ y, G m c y = total (Lk m c) (Bk m c) := by
  rw [sum_idx411, ← sum_tiles]
  refine Finset.sum_congr rfl fun i _ => ?_
  show ∑ j : Fin 8, tileN (Lk m c) (Bk m c) i.val j.val = _
  refine Finset.sum_congr rfl fun j _ => ?_
  show tile _ _ ⟨i.val % 4, _⟩ ⟨j.val % 8, _⟩ = _
  congr 1
  · exact Fin.ext (Nat.mod_eq_of_lt i.isLt)
  · exact Fin.ext (Nat.mod_eq_of_lt j.isLt)

/-- The host lines after the call turn the call's result into the loss of the call's operands. -/
theorem tail_eq (c : Dev nD) :
    Pipeline.afterTail₀ cfgs (dats m) 0 (V0 m) [hostOps1] c main_v8 = loss (Lk m c) (Bk m c) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v5)
      = G m c := (Pipeline.withArrays_arr spec0 launch0.win.arr_inj c _ _ 2).trans (final m c)
  rw [hw]
  funext i
  rw [tail_apply, sum_G]
  rfl

/-- The run of the kernel's program: the result at the loss of the call's operands, the arguments unchanged. -/
theorem run : θ_run defs (onTc (τ := τ) (main (F := Ideal))) ⟨m, fun _ => 0, ρ⟩ fun r => ∀ c : Dev nD,
      r.2.mem ((c : Thread nD τ).loc main_v8)
        = loss (logRatio (m ((c : Thread nD τ).loc main_arg0)) (m ((c : Thread nD τ).loc main_arg1)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(((h c).2 main_v8 (Pipeline.mem_restRefs_of main_v8 (by decide) (by decide))).trans (tail_eq m c)).trans
        (by rw [show Lk m c = _ from V_v3 m c, show Bk m c = _ from V_v4 m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  What the reference computes over the extended reals: the loss of the difference of the arguments' logarithms
  and the second argument.

  Its 8192 x 8192 matrix is the negated product `-(L Bᵀ)`; an entry and its negation have the same absolute value,
  and the sum over the index square is the double sum over rows and columns.
-/
import proofs.«139733_j53927609369065_2_alg».proof.Proof.Gen.ReferenceIdeal.Read
import proofs.«139733_j53927609369065_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Spec

/-- Entry `(a, b)` of the reference's matrix of absolute values. -/
theorem abs_at (x0 x1 : S8192x128.Idx → EReal) (a b : Fin 8192) :
    val_main_v5 (F := Ideal) x0 x1 (ix2 a b) = absE (prodAt (logRatio x0 x1) x1 a b) := by
  rw [val_main_v5_apply, val_main_v4_apply, val_main_v3_apply]
  refine (absE_neg _).trans (congrArg absE (Finset.sum_congr rfl fun k _ => ?_))
  have el : lidx_main_v3 (ix2 a b) k = ix2 a k := funext fun d => match d with | ⟨0, _⟩ => rfl | ⟨1, _⟩ => rfl
  have er : ridx_main_v3 (ix2 a b) k = ix2 b k := funext fun d => match d with | ⟨0, _⟩ => rfl | ⟨1, _⟩ => rfl
  rw [el, er]
  rfl

/-- The reference's result is the loss. -/
theorem result_eq (x0 x1 : S8192x128.Idx → EReal) :
    val_main_v8 (F := Ideal) x0 x1 = loss (logRatio x0 x1) x1 := by
  funext i
  rw [val_main_v8_apply, val_main_v7_apply, val_main_v6_apply, sum_idx2]
  have hs : (∑ a : Fin 8192, ∑ b : Fin 8192, val_main_v5 (F := Ideal) x0 x1 (ix2 a b)) = total (logRatio x0 x1) x1 :=
    Finset.sum_congr rfl fun a _ => Finset.sum_congr rfl fun b _ => abs_at x0 x1 a b
  rw [hs]
  rfl

end Cert.ReferenceIdeal.RefValue

end
-- ==== Proof.lean ====
/-
  The kernel and its reference compute the same loss over the extended reals.

  Both programs take two 8192 x 128 arrays `s` and `t`, form `L = log s - log t`, and return
  `c₁ + (0 + ∑ a, ∑ b, |(L tᵀ) (a, b)|) / c₂` with the same two constants.  The reference forms the whole
  8192 x 8192 matrix `-(L tᵀ)` and sums its absolute values at once.  The kernel walks a 4 x 8 grid of
  2048 x 1024 tiles: at each tile it multiplies a band of `L` by a band of `t` transposed, sums the absolute
  values over the tile, and accumulates the eight tile sums of a row of tiles in one entry of a 4 x 1 x 1 result,
  which the host then adds up.  The two agree because `|-x| = |x|` and because the sum over the index square is
  the sum over the tiles of the tiles' sums: addition of extended reals is commutative and associative, so no
  finiteness of the inputs is used.  The change of float format before the kernel's product is the identity.
  The three frames are the generated ones (the reference's is its generated run with the result dropped), and the
  kernel's idealization rewrote nothing.
-/
import proofs.«139733_j53927609369065_2_alg».proof.Defs
import proofs.«139733_j53927609369065_2_alg».proof.Proof.Gen.Kernel
import proofs.«139733_j53927609369065_2_alg».proof.Proof.Gen.Kernel.Frame
import proofs.«139733_j53927609369065_2_alg».proof.Proof.Gen.KernelIdeal
import proofs.«139733_j53927609369065_2_alg».proof.Proof.Gen.KernelIdeal.Frame
import proofs.«139733_j53927609369065_2_alg».proof.Proof.Gen.ReferenceIdeal
import proofs.«139733_j53927609369065_2_alg».proof.Proof.Gen.ReferenceIdeal.Run
import proofs.«139733_j53927609369065_2_alg».proof.Proof.Gen.ReferenceIdeal.Read
import proofs.«139733_j53927609369065_2_alg».proof.Proof.Gen.Pre_finite_inputs
import proofs.«139733_j53927609369065_2_alg».proof.Proof.KernelValue
import proofs.«139733_j53927609369065_2_alg».proof.Proof.RefValue
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the loss of `log s - log t` and `t`, for arguments that agree. -/
theorem algebraic : Cert.algebraic_KernelIdeal_ReferenceIdeal := by
  intro m ρ m' ρ' _ hagree
  refine ⟨fun c => loss
      (logRatio (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
